-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 35
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000x128, .bf16⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .bf16⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000, .f32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowSpec.lean ====
/-
  One row of the network, as a function of that row alone.

  Every stage after the neighbour aggregation acts on each of the 100000 rows separately: a row `x` of the features and
  the matching row `a` of the aggregate are mixed (`1·x + a`), pass through two affine maps with a rectifier between
  them, are normalised over their 128 entries (mean, variance with divisor 128, reciprocal square root of the variance
  plus a small constant, then scale and shift), and the residual affine image of `x` is added. Below that map is written
  once, over the extended reals, with the three float constants kept as the words the programs print.
-/
import Idealize.ShloMosaic.PureOps.Ideal

noncomputable section

namespace Cert.GinRow

open Idealize.ShloMosaic

/-- The factor of the self term, the word of `1.0`. -/
abbrev one : EReal := Ideal.ofBits .f32 0x3F800000#32
/-- The divisor of both row averages, the word of `128.0`. -/
abbrev width : EReal := Ideal.ofBits .f32 0x43000000#32
/-- The constant added to the variance, the word both programs print for it. -/
abbrev eps : EReal := Ideal.ofBits .f32 0x3727C5AC#32

/-- An affine map of a row: entry `j` is `∑ₖ v k · W k j + b j`. -/
def affine (v : Fin 128 → EReal) (W : Fin 128 → Fin 128 → EReal) (b : Fin 128 → EReal) (j : Fin 128) : EReal :=
  (∑ k : Fin 128, v k * W k j) + b j

/-- The row entering the first affine map: the self term plus the aggregate. -/
def mixed (x a : Fin 128 → EReal) (k : Fin 128) : EReal := one * x k + a k

/-- The first affine map followed by the rectifier. -/
def hiddenAct (x a : Fin 128 → EReal) (W1 : Fin 128 → Fin 128 → EReal) (b1 : Fin 128 → EReal) (j : Fin 128) : EReal :=
  max (affine (mixed x a) W1 b1 j) 0

/-- The row before normalisation: the second affine map of the rectified row. -/
def pre (x a : Fin 128 → EReal) (W1 : Fin 128 → Fin 128 → EReal) (b1 : Fin 128 → EReal)
    (W2 : Fin 128 → Fin 128 → EReal) (b2 : Fin 128 → EReal) (j : Fin 128) : EReal :=
  affine (hiddenAct x a W1 b1) W2 b2 j

/-- The average of a row's 128 entries. -/
def mean (v : Fin 128 → EReal) : EReal := Ideal.div (∑ j : Fin 128, v j) width

/-- A row with its average subtracted. -/
def centred (v : Fin 128 → EReal) (j : Fin 128) : EReal := v j - mean v

/-- The average of the squares of the centred row. -/
def variance (v : Fin 128 → EReal) : EReal := Ideal.div (∑ j : Fin 128, centred v j * centred v j) width

/-- The normalised row, scaled by `g` and shifted by `s`. -/
def layerNorm (v g s : Fin 128 → EReal) (j : Fin 128) : EReal :=
  centred v j * Ideal.rsqrt (variance v + eps) * g j + s j

/-- The whole row map: the normalised second-layer row plus the residual affine image of `x`. -/
def rowOut (x a : Fin 128 → EReal) (W1 : Fin 128 → Fin 128 → EReal) (b1 : Fin 128 → EReal)
    (W2 : Fin 128 → Fin 128 → EReal) (b2 g s : Fin 128 → EReal) (Wr : Fin 128 → Fin 128 → EReal) (br : Fin 128 → EReal)
    (j : Fin 128) : EReal :=
  layerNorm (pre x a W1 b1 W2 b2) g s j + affine x Wr br j

end Cert.GinRow

end
-- ==== Proof.RefRow.lean ====
/-
  The reference's result, read at one entry.

  The reference computes on whole [100000, 128] arrays. Read at row `r` and column `j`, each of its stages depends only
  on row `r` of the features and row `r` of the aggregate (the scatter-add of the gathered rows, which is carried here
  as it stands and never opened): a host contraction is the sum over the contracted index, a host row sum is its initial
  zero plus the sum over the row, and the broadcasts of a length-128 vector and of a per-row scalar read the vector's
  entry `j` and the scalar of row `r`. So the result at `(r, j)` is the row map of `Cert.GinRow` applied to row `r`.
-/
import proofs.«130822_j6476810682403_2_alg».proof.Proof.Gen.ReferenceIdeal.Read
import proofs.«130822_j6476810682403_2_alg».proof.Proof.RowSpec
import Idealize.ShloMosaic.Lib.ValueIdx
import Idealize.ShloMosaic.PureOps.Ideal.Laws

noncomputable section

namespace Cert.ReferenceIdeal.Row

open Cert.ReferenceIdeal Cert.ReferenceIdeal.Read Idealize.ShloMosaic Idealize.ShloMosaic.ValueIdx Cert.GinRow

abbrev Rows := (⟨S100000x128, .f32⟩ : BufTy).Contents (Elt Ideal)
abbrev Edges := (⟨S2x1600000, .i32⟩ : BufTy).Contents (Elt Ideal)
abbrev Mat := (⟨S128x128, .f32⟩ : BufTy).Contents (Elt Ideal)
abbrev Row128 := (⟨S128, .f32⟩ : BufTy).Contents (Elt Ideal)

/-! ## An affine map on the host: a contraction plus a length-128 vector broadcast down the rows -/

/-- The residual stage is stated for ANY left factor, weight and vector, so it serves as the host's affine map. -/
theorem affine_at (L : Rows) (W : Mat) (b : Row128) (r : Fin 100000) (j : Fin 128) :
    val_main_v53 (F := Ideal) L W b (ix2 r j) = affine (fun k => L (ix2 r k)) (fun k j => W (ix2 k j)) (fun j => b (ix1 j)) j := by
  have el : ∀ k, lidx_main_v50 (ix2 r j) k = ix2 r k := fun k => funext fun a => Fin.ext (by
    match a with | ⟨0, _⟩ => rfl | ⟨1, _⟩ => rfl)
  have er : ∀ k, ridx_main_v50 (ix2 r j) k = ix2 k j := fun k => funext fun a => Fin.ext (by
    match a with | ⟨0, _⟩ => rfl | ⟨1, _⟩ => rfl)
  have eb : idx_main_v51 (idx_main_v52 (ix2 r j)) = ix1 j := funext fun a => Fin.ext (by
    match a with | ⟨0, _⟩ => rfl)
  rw [val_main_v53_apply, val_main_v50_apply, val_main_v52_apply, val_main_v51_apply, eb]
  simp only [el, er]
  rfl

/-- The two affine maps of the network are the same host operations as the residual one, on other operands. -/
theorem v20_eq (x0 : Rows) (x1 : Edges) (x2 : Mat) (x3 : Row128) :
    val_main_v20 (F := Ideal) x0 x1 x2 x3 = val_main_v53 (F := Ideal) (val_main_v16 (F := Ideal) x0 x1) x2 x3 := rfl

theorem v25_eq (x0 : Rows) (x1 : Edges) (x2 : Mat) (x3 : Row128) (x4 : Mat) (x5 : Row128) :
    val_main_v25 (F := Ideal) x0 x1 x2 x3 x4 x5 = val_main_v53 (F := Ideal) (val_main_v21 (F := Ideal) x0 x1 x2 x3) x4 x5 := rfl

section Stages

variable (x0 : Rows) (x1 : Edges) (x2 : Mat) (x3 : Row128) (x4 : Mat) (x5 : Row128)

/-- Row `r` of the aggregate: the scatter-add of the gathered rows, as the reference's run states it. -/
abbrev aggRow (r : Fin 100000) : Fin 128 → EReal := fun k => val_main_v13 (F := Ideal) x0 x1 (ix2 r k)

/-- Row `r` before normalisation. -/
abbrev preRow (r : Fin 100000) : Fin 128 → EReal :=
  pre (fun k => x0 (ix2 r k)) (aggRow x0 x1 r) (fun k j => x2 (ix2 k j)) (fun j => x3 (ix1 j)) (fun k j => x4 (ix2 k j)) (fun j => x5 (ix1 j))

theorem v16_at (r : Fin 100000) (k : Fin 128) :
    val_main_v16 (F := Ideal) x0 x1 (ix2 r k) = mixed (fun k => x0 (ix2 r k)) (aggRow x0 x1 r) k := by
  rw [val_main_v16_apply, val_main_v15_apply, val_main_v14_apply, val_main_cst_1_apply]
  rfl

theorem v21_at (r : Fin 100000) (j : Fin 128) :
    val_main_v21 (F := Ideal) x0 x1 x2 x3 (ix2 r j)
      = hiddenAct (fun k => x0 (ix2 r k)) (aggRow x0 x1 r) (fun k j => x2 (ix2 k j)) (fun j => x3 (ix1 j)) j := by
  rw [val_main_v21_apply, val_main_call0_v0_apply, val_main_call0_cst_apply, v20_eq, affine_at]
  show max _ (Ideal.ofBits .f32 0x00000000#32) = _
  rw [Ideal.ofBits_zero_f32]
  unfold hiddenAct
  exact congrArg (fun v => max (affine v _ _ j) 0) (funext fun k => v16_at x0 x1 r k)

theorem v25_at (r : Fin 100000) (j : Fin 128) :
    val_main_v25 (F := Ideal) x0 x1 x2 x3 x4 x5 (ix2 r j) = preRow x0 x1 x2 x3 x4 x5 r j := by
  rw [v25_eq, affine_at]
  unfold preRow pre
  exact congrArg (fun v => affine v _ _ j) (funext fun k => v21_at x0 x1 x2 x3 r k)

/-- The row average, at row `r`. -/
theorem v29_at (r : Fin 100000) (u : Fin 1) :
    val_main_v29 (F := Ideal) x0 x1 x2 x3 x4 x5 (ix2 r u) = mean (preRow x0 x1 x2 x3 x4 x5 r) := by
  have e : ∀ k, idx_main_v26 (idx_main_v27 (ix2 r u)) k = ix2 r k := fun k => funext fun a => Fin.ext (by
    match a with | ⟨0, _⟩ => rfl | ⟨1, _⟩ => rfl)
  rw [val_main_v29_apply, val_main_v27_apply, val_main_v26_apply, val_main_v28_apply, val_main_cst_3_apply, val_main_cst_2_apply]
  simp only [e, v25_at]
  show Ideal.div (Ideal.ofBits .f32 0x00000000#32 + _) _ = _
  rw [Ideal.ofBits_zero_f32, zero_add]
  rfl

/-- The centred row, as the variance's operand spells it and as the normalised row's does. -/
theorem v31_at (r : Fin 100000) (j : Fin 128) :
    val_main_v31 (F := Ideal) x0 x1 x2 x3 x4 x5 (ix2 r j) = centred (preRow x0 x1 x2 x3 x4 x5 r) j := by
  have e : idx_main_v30 (ix2 r j) = ix2 r (0 : Fin 1) := funext fun a => Fin.ext (by
    match a with | ⟨0, _⟩ => rfl | ⟨1, _⟩ => rfl)
  rw [val_main_v31_apply, val_main_v30_apply, e, v25_at, v29_at]
  rfl

theorem v38_at (r : Fin 100000) (j : Fin 128) :
    val_main_v38 (F := Ideal) x0 x1 x2 x3 x4 x5 (ix2 r j) = centred (preRow x0 x1 x2 x3 x4 x5 r) j := by
  have e : idx_main_v37 (ix2 r j) = ix2 r (0 : Fin 1) := funext fun a => Fin.ext (by
    match a with | ⟨0, _⟩ => rfl | ⟨1, _⟩ => rfl)
  rw [val_main_v38_apply, val_main_v37_apply, e, v25_at, v29_at]
  rfl

/-- The row's variance, at row `r`. -/
theorem v36_at (r : Fin 100000) (u : Fin 1) :
    val_main_v36 (F := Ideal) x0 x1 x2 x3 x4 x5 (ix2 r u) = variance (preRow x0 x1 x2 x3 x4 x5 r) := by
  have e : ∀ k, idx_main_v33 (idx_main_v34 (ix2 r u)) k = ix2 r k := fun k => funext fun a => Fin.ext (by
    match a with | ⟨0, _⟩ => rfl | ⟨1, _⟩ => rfl)
  rw [val_main_v36_apply, val_main_v34_apply, val_main_v33_apply, val_main_v35_apply, val_main_cst_5_apply, val_main_cst_4_apply]
  simp only [e, val_main_v32_apply, v31_at]
  show Ideal.div (Ideal.ofBits .f32 0x00000000#32 + _) _ = _
  rw [Ideal.ofBits_zero_f32, zero_add]
  rfl

end Stages

/-- THE REFERENCE AT AN ENTRY: its result at `(r, j)` is the row map of row `r` of the features and of the aggregate. -/
theorem result_at (x0 : Rows) (x1 : Edges) (x2 : Mat) (x3 : Row128) (x4 : Mat) (x5 x6 x7 : Row128) (x8 : Mat) (x9 : Row128)
    (r : Fin 100000) (j : Fin 128) :
    val_main_v54 (F := Ideal) x0 x1 x2 x3 x4 x5 x6 x7 x8 x9 (ix2 r j)
      = rowOut (fun k => x0 (ix2 r k)) (aggRow x0 x1 r) (fun k j => x2 (ix2 k j)) (fun j => x3 (ix1 j))
          (fun k j => x4 (ix2 k j)) (fun j => x5 (ix1 j)) (fun j => x6 (ix1 j)) (fun j => x7 (ix1 j))
          (fun k j => x8 (ix2 k j)) (fun j => x9 (ix1 j)) j := by
  have ec : idx_main_v42 (ix2 r j) = ix2 r (0 : Fin 1) := funext fun a => Fin.ext (by
    match a with | ⟨0, _⟩ => rfl | ⟨1, _⟩ => rfl)
  have eg : idx_main_v44 (idx_main_v45 (ix2 r j)) = ix1 j := funext fun a => Fin.ext (by
    match a with | ⟨0, _⟩ => rfl)
  have es : idx_main_v47 (idx_main_v48 (ix2 r j)) = ix1 j := funext fun a => Fin.ext (by
    match a with | ⟨0, _⟩ => rfl)
  rw [val_main_v54_apply, affine_at, val_main_v49_apply, val_main_v46_apply, val_main_v43_apply, val_main_v42_apply, ec,
    val_main_v41_apply, val_main_v40_apply, val_main_v39_apply, val_main_cst_6_apply, val_main_v45_apply, val_main_v44_apply, eg,
    val_main_v48_apply, val_main_v47_apply, es, v38_at, v36_at]
  rfl

/-! ## The result array as one function of the arguments -/

/-- THE RESULT: entry `(r, j)` is the row map of row `r` of the features and of the aggregate, at column `j`. -/
def whole (x0 : Rows) (x1 : Edges) (x2 : Mat) (x3 : Row128) (x4 : Mat) (x5 x6 x7 : Row128) (x8 : Mat) (x9 : Row128) : Rows :=
  fun i => rowOut (fun k => x0 (ix2 (⟨(i 0).val, idx2_lt0 i⟩ : Fin 100000) k))
    (fun k => val_main_v13 (F := Ideal) x0 x1 (ix2 (⟨(i 0).val, idx2_lt0 i⟩ : Fin 100000) k))
    (fun k j => x2 (ix2 k j)) (fun j => x3 (ix1 j)) (fun k j => x4 (ix2 k j)) (fun j => x5 (ix1 j))
    (fun j => x6 (ix1 j)) (fun j => x7 (ix1 j)) (fun k j => x8 (ix2 k j)) (fun j => x9 (ix1 j)) (⟨(i 1).val, idx2_lt1 i⟩ : Fin 128)

theorem whole_at (x0 : Rows) (x1 : Edges) (x2 : Mat) (x3 : Row128) (x4 : Mat) (x5 x6 x7 : Row128) (x8 : Mat) (x9 : Row128)
    (r : Fin 100000) (j : Fin 128) :
    whole x0 x1 x2 x3 x4 x5 x6 x7 x8 x9 (ix2 r j)
      = rowOut (fun k => x0 (ix2 r k)) (fun k => val_main_v13 (F := Ideal) x0 x1 (ix2 r k)) (fun k j => x2 (ix2 k j)) (fun j => x3 (ix1 j))
          (fun k j => x4 (ix2 k j)) (fun j => x5 (ix1 j)) (fun j => x6 (ix1 j)) (fun j => x7 (ix1 j))
          (fun k j => x8 (ix2 k j)) (fun j => x9 (ix1 j)) j := rfl

/-- The reference's last stage is that function. -/
theorem result_eq (x0 : Rows) (x1 : Edges) (x2 : Mat) (x3 : Row128) (x4 : Mat) (x5 x6 x7 : Row128) (x8 : Mat) (x9 : Row128) :
    val_main_v54 (F := Ideal) x0 x1 x2 x3 x4 x5 x6 x7 x8 x9 = whole x0 x1 x2 x3 x4 x5 x6 x7 x8 x9 := by
  funext i
  obtain ⟨r, j, rfl⟩ : ∃ (r : Fin 100000) (j : Fin 128), i = ix2 r j := ⟨i 0, i 1, eq_ix2 i⟩
  rw [result_at, whole_at]

end Cert.ReferenceIdeal.Row

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelRow.lean ====
/-
  The kernel body's arithmetic, read at one entry of its [4000, 128] block.

  The body loads a block of features `x`, a block of aggregates `a`, the three weight matrices and the five [1, 128]
  rows, and stores one value. Read at row `p` and column `j` of the block, every stage depends only on row `p` of the two
  row blocks: the products into a zero accumulator are sums over the contracted index, the lane sums are sums over a
  row's 128 entries, the [1, 128] rows are broadcast down the rows and the [4000, 1] columns across the lanes, and a
  change of float format is the identity on the extended reals. So the stored value at `(p, j)` is the row map of
  `Cert.GinRow` applied to row `p` of the loaded blocks.
-/
import proofs.«130822_j6476810682403_2_alg».proof.Proof.Gen.KernelIdeal.Skeleton
import proofs.«130822_j6476810682403_2_alg».proof.Proof.RowSpec
import proofs.«130822_j6476810682403_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.GinRow

/-- The body's one contraction: [4000, 128] by [128, 128] over the shared axis. -/
abbrev dotK := dot_S4000x128_S128x128_S4000x128_1_0_0_1_n_n

/-! ## The body's three non-pointwise operations at an entry -/

theorem lhsIdx_row (i : S4000x128.Idx) (q : dotK.contr.Idx) : (dotK.lhsIdx i q 0).val = (i 0).val := by
  unfold DotDims.lhsIdx
  rw [dif_neg (show ¬(0 : Fin S4000x128.rank) ∈ dotK.lhsBatch by decide), dif_pos (show (0 : Fin S4000x128.rank) ∈ dotK.lhsNonContracting by decide)]
  rfl

theorem rhsIdx_col (i : S4000x128.Idx) (q : dotK.contr.Idx) : (dotK.rhsIdx i q 1).val = (i 1).val := by
  unfold DotDims.rhsIdx
  rw [dif_neg (show ¬(1 : Fin S128x128.rank) ∈ dotK.rhsBatch by decide), dif_pos (show (1 : Fin S128x128.rank) ∈ dotK.rhsNonContracting by decide)]
  rfl

/-- A product into the zero accumulator, at `(p, j)`: row `p` of the left factor against column `j` of the right. -/
theorem matmul_at {φ₁ φ₂ : FTy} (lhs : FVec Ideal S4000x128 φ₁) (rhs : FVec Ideal S128x128 φ₂) (p : Fin 4000) (j : Fin 128) :
    matmul dotK none lhs rhs (constant (F := Ideal) S4000x128 .f32 0x00000000#32) (ix2 p j)
      = ∑ k : Fin 128, lhs (ix2 p k) * rhs (ix2 k j) := by
  refine (Ideal.matmul_constant_zero_apply dotK none lhs rhs (ix2 p j)).trans ?_
  rw [← Equiv.sum_comp (ValueIdx.contrEquiv1 dotK 128 rfl rfl).symm]
  refine Finset.sum_congr rfl fun k _ => ?_
  have hk := ValueIdx.contrEquiv1_symm_val dotK 128 rfl rfl k
  have el : dotK.lhsIdx (ix2 p j) ((ValueIdx.contrEquiv1 dotK 128 rfl rfl).symm k) = ix2 p k := funext fun a => Fin.ext (by
    match a with
    | ⟨0, _⟩ => exact lhsIdx_row _ _
    | ⟨1, _⟩ => exact (dotK.lhsIdx_val_of_single rfl _ _).trans hk)
  have er : dotK.rhsIdx (ix2 p j) ((ValueIdx.contrEquiv1 dotK 128 rfl rfl).symm k) = ix2 k j := funext fun a => Fin.ext (by
    match a with
    | ⟨0, _⟩ => exact (dotK.rhsIdx_val_of_single rfl _ _).trans hk
    | ⟨1, _⟩ => exact rhsIdx_col _ _)
  rw [el, er]

/-- A [1, 128] row broadcast down the 4000 rows, at `(p, j)`: the row's entry `j`. -/
theorem bias_at (b : FVec Ideal S1x128 .f32) (hc : S1x128.ShapeCasts S1x128) (hb : S1x128.Broadcasts S4000x128)
    (p : Fin 4000) (j : Fin 128) :
    broadcastTo S4000x128 (shapeCast S1x128 b hc) hb (ix2 p j) = b (ix2 (0 : Fin 1) j) := by
  rw [shapeCast_self]
  exact broadcastTo_1b_ab_apply b hb p j

/-- A [4000, 1] column broadcast across the 128 lanes, at `(p, j)`: the column's entry at row `p`. -/
theorem column_at (v : FVec Ideal S4000x1 .f32) (hb : S4000x1.Broadcasts S4000x128) (p : Fin 4000) (j : Fin 128) :
    broadcastTo S4000x128 v hb (ix2 p j) = v (ix2 p (0 : Fin 1)) :=
  Cert.LibColumn.broadcastTo_a1_ab_apply v hb p j

/-- A lane sum kept as a [4000, 1] column, at row `p`: the sum of row `p`'s 128 entries. -/
theorem laneSum_at (v : FVec Ideal S4000x128 .f32) (h : S4000x128.Reduces [1] S4000) (hφ : FKind.Formats .f32)
    (hacc : (0x00000000#32 : BitVec 32) = FKind.add.neutral .f32 hφ) (hc : S4000.ShapeCasts S4000x1)
    (p : Fin 4000) (u : Fin 1) :
    shapeCast S4000x1 (multiReduction (F := Ideal) .add [1] S4000 v 0x00000000#32 h hφ hacc) hc (ix2 p u)
      = ∑ k : Fin 128, v (ix2 p k) := by
  refine (Cert.LibColumn.shapeCast_a_a1_apply _ hc p u).trans ?_
  refine (Ideal.multiReduction_add_single v 0x00000000#32 h hφ hacc (ix1 p)).trans ?_
  refine Finset.sum_congr rfl fun k _ => congrArg v (funext fun a => Fin.ext ?_)
  match a with
  | ⟨0, _⟩ => rfl
  | ⟨1, _⟩ => rfl

/-- A product into the zero accumulator plus a broadcast [1, 128] row, at `(p, j)`: the affine map of row `p`. -/
theorem affine_at {φ₁ φ₂ : FTy} (lhs : FVec Ideal S4000x128 φ₁) (w : FVec Ideal S128x128 φ₂) (b : FVec Ideal S1x128 .f32)
    (hc : S1x128.ShapeCasts S1x128) (hb : S1x128.Broadcasts S4000x128) (p : Fin 4000) (j : Fin 128) :
    addf (matmul dotK none lhs w (constant (F := Ideal) S4000x128 .f32 0x00000000#32)) (broadcastTo S4000x128 (shapeCast S1x128 b hc) hb) (ix2 p j)
      = affine (fun k => lhs (ix2 p k)) (fun k j => w (ix2 k j)) (fun j => b (ix2 (0 : Fin 1) j)) j := by
  show matmul dotK none lhs w (constant (F := Ideal) S4000x128 .f32 0x00000000#32) (ix2 p j) + broadcastTo S4000x128 (shapeCast S1x128 b hc) hb (ix2 p j) = _
  rw [matmul_at, bias_at]
  rfl

/-! ## The payloads at an entry -/

section Payloads

variable (x0 x1 : Vec Ideal S4000x128 .f32) (w1 : Vec Ideal S128x128 .f32) (b1 : Vec Ideal S1x128 .f32)
  (w2 : Vec Ideal S128x128 .f32) (b2 : Vec Ideal S1x128 .f32)

/-- The row of the block before normalisation. -/
abbrev preRow (p : Fin 4000) : Fin 128 → EReal :=
  pre (fun k => x0 (ix2 p k)) (fun k => x1 (ix2 p k)) (fun k j => w1 (ix2 k j)) (fun j => b1 (ix2 (0 : Fin 1) j))
    (fun k j => w2 (ix2 k j)) (fun j => b2 (ix2 (0 : Fin 1) j))

/-- The second affine map's output at `(p, j)`. -/
theorem pay2_at (p : Fin 4000) (j : Fin 128) : k0_pay2 x0 x1 w1 b1 w2 b2 (ix2 p j) = preRow x0 x1 w1 b1 w2 b2 p j := by
  unfold k0_pay2
  refine (affine_at _ _ _ _ _ p j).trans ?_
  unfold preRow pre
  refine congrArg (fun v => affine v _ _ j) (funext fun k => ?_)
  refine (congrArg (fun s => max s (Ideal.ofBits .f32 0x00000000#32)) (affine_at _ _ _ _ _ p k)).trans ?_
  rw [Ideal.ofBits_zero_f32]
  unfold hiddenAct
  refine congrArg (fun v => max (affine v _ _ k) 0) (funext fun i => ?_)
  show Ideal.ofBits .f32 0x3F800000#32 * x0 (ix2 p i) + shapeCast S4000x128 x1 _ (ix2 p i) = _
  rw [shapeCast_self]
  rfl

/-- The row average, kept as a column, at row `p`. -/
theorem pay3_at (p : Fin 4000) (u : Fin 1) : k0_pay3 x0 x1 w1 b1 w2 b2 (ix2 p u) = mean (preRow x0 x1 w1 b1 w2 b2 p) := by
  unfold k0_pay3
  dsimp only
  refine (congrArg (fun s => Ideal.div s (Ideal.ofBits .f32 0x43000000#32)) (laneSum_at (k0_pay2 x0 x1 w1 b1 w2 b2) _ _ _ _ p u)).trans ?_
  unfold mean
  exact congrArg (fun s => Ideal.div s width) (Finset.sum_congr rfl fun j _ => pay2_at x0 x1 w1 b1 w2 b2 p j)

/-- The centred row at `(p, j)`. -/
theorem pay5_at (p : Fin 4000) (j : Fin 128) : k0_pay5 x0 x1 w1 b1 w2 b2 (ix2 p j) = centred (preRow x0 x1 w1 b1 w2 b2 p) j := by
  unfold k0_pay5
  show k0_pay2 x0 x1 w1 b1 w2 b2 (ix2 p j) - broadcastTo S4000x128 (k0_pay3 x0 x1 w1 b1 w2 b2) _ (ix2 p j) = _
  rw [column_at, pay2_at, pay3_at]
  rfl

/-- The row's variance, kept as a column, at row `p`. -/
theorem pay4_at (p : Fin 4000) (u : Fin 1) : k0_pay4 x0 x1 w1 b1 w2 b2 (ix2 p u) = variance (preRow x0 x1 w1 b1 w2 b2 p) := by
  unfold k0_pay4
  dsimp only
  refine (congrArg (fun s => Ideal.div s (Ideal.ofBits .f32 0x43000000#32)) (laneSum_at _ _ _ _ _ p u)).trans ?_
  unfold variance
  refine congrArg (fun s => Ideal.div s width) (Finset.sum_congr rfl fun k _ => ?_)
  show (k0_pay2 x0 x1 w1 b1 w2 b2 (ix2 p k) - broadcastTo S4000x128 (k0_pay3 x0 x1 w1 b1 w2 b2) _ (ix2 p k))
      * (k0_pay2 x0 x1 w1 b1 w2 b2 (ix2 p k) - broadcastTo S4000x128 (k0_pay3 x0 x1 w1 b1 w2 b2) _ (ix2 p k)) = _
  rw [column_at, pay2_at, pay3_at]
  rfl

end Payloads

/-- The stored value at `(p, j)` from the values it is computed from. -/
theorem pay1_at (v0 : Vec Ideal S4000x128 .f32) (v34 : FVec Ideal S4000x1 .f32) (v36 : FVec Ideal S4000x128 .f32)
    (v37 : FVec Ideal S4000x1 .f32) (g s : Vec Ideal S1x128 .f32) (wr : Vec Ideal S128x128 .f32) (br : Vec Ideal S1x128 .f32)
    (p : Fin 4000) (j : Fin 128) :
    k0_pay1 v0 v34 v36 v37 g s wr br (ix2 p j)
      = v36 (ix2 p j) * Ideal.rsqrt (v34 (ix2 p (0 : Fin 1)) + v37 (ix2 p (0 : Fin 1))) * g (ix2 (0 : Fin 1) j) + s (ix2 (0 : Fin 1) j)
        + affine (fun k => v0 (ix2 p k)) (fun k j => wr (ix2 k j)) (fun j => br (ix2 (0 : Fin 1) j)) j := by
  unfold k0_pay1
  show v36 (ix2 p j) * broadcastTo S4000x128 (rsqrt (addf v34 v37)) _ (ix2 p j) * broadcastTo S4000x128 (shapeCast S1x128 g _) _ (ix2 p j)
      + broadcastTo S4000x128 (shapeCast S1x128 s _) _ (ix2 p j)
      + addf (matmul dotK none _ _ (constant (F := Ideal) S4000x128 .f32 0x00000000#32)) (broadcastTo S4000x128 (shapeCast S1x128 br _) _) (ix2 p j) = _
  rw [column_at, bias_at, bias_at, affine_at]
  rfl

/-- THE BODY AT AN ENTRY: what the body stores at `(p, j)` of its block is the row map of row `p` of the loaded blocks. -/
theorem stored_at (x0 x1 : Vec Ideal S4000x128 .f32) (w1 : Vec Ideal S128x128 .f32) (b1 : Vec Ideal S1x128 .f32)
    (w2 : Vec Ideal S128x128 .f32) (b2 g s : Vec Ideal S1x128 .f32) (wr : Vec Ideal S128x128 .f32) (br : Vec Ideal S1x128 .f32)
    (p : Fin 4000) (j : Fin 128) :
    k0_pay1 x0 (k0_pay4 x0 x1 w1 b1 w2 b2) (k0_pay5 x0 x1 w1 b1 w2 b2) (k0_pay6 (F := Ideal)) g s wr br (ix2 p j)
      = rowOut (fun k => x0 (ix2 p k)) (fun k => x1 (ix2 p k)) (fun k j => w1 (ix2 k j)) (fun j => b1 (ix2 (0 : Fin 1) j))
          (fun k j => w2 (ix2 k j)) (fun j => b2 (ix2 (0 : Fin 1) j)) (fun j => g (ix2 (0 : Fin 1) j)) (fun j => s (ix2 (0 : Fin 1) j))
          (fun k j => wr (ix2 k j)) (fun j => br (ix2 (0 : Fin 1) j)) j := by
  rw [pay1_at, pay4_at, pay5_at]
  rfl

end Cert.KernelIdeal.Row

end
-- ==== Proof.HostPrefix.lean ====
/-
  What the region finds in the arrays that host lines wrote before it.

  Two kinds of window arrays are not arguments. The aggregate is the scatter-add, onto zeros, of the rows gathered from
  the features after a round trip through the narrower float format; on the extended reals that round trip is the
  identity, so the array is the same scatter-add of the same gathered rows that the reference's run states, and it is
  identified with that term as a whole, never opened. The five [1, 128] rows are the length-128 argument vectors with a
  leading unit axis added.
-/
import proofs.«130822_j6476810682403_2_alg».proof.Proof.Gen.KernelIdeal.Frame
import proofs.«130822_j6476810682403_2_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
/-- The aggregate the region finds is the reference's scatter-add of the gathered rows of the same two arguments. -/
theorem agg_entry (c : Dev nD) :
    (V m c main_v15 : S100000x128.Idx → EReal)
      = Cert.ReferenceIdeal.Read.val_main_v13 (F := Ideal) (m ((c : Thread nD τ).loc main_arg0)) (m ((c : Thread nD τ).loc main_arg1)) := by
  dsimp only [V, hostOps0]
  after_results_simp
  rfl

/-- A length-128 vector with a leading unit axis added, at `(0, j)`: the vector's entry `j`. -/
theorem row_entry (x : S128.Idx → EReal) (h : S128.ShapeCasts S1x128) (j : Fin 128) :
    shapeCast S1x128 x h (ix2 (0 : Fin 1) j) = x (ix1 j) :=
  shapeCast_a_1a_apply x h 0 j

theorem b1_entry (c : Dev nD) (j : Fin 128) :
    (V m c main_v16 : S1x128.Idx → EReal) (ix2 (0 : Fin 1) j) = (m ((c : Thread nD τ).loc main_arg3) : S128.Idx → EReal) (ix1 j) := by
  have e : (V m c main_v16 : S1x128.Idx → EReal) = shapeCast S1x128 (m ((c : Thread nD τ).loc main_arg3) : S128.Idx → EReal) shapeCasts_S128_S1x128 := by
    dsimp only [V, hostOps0]; after_results; rfl
  rw [e, row_entry]

theorem b2_entry (c : Dev nD) (j : Fin 128) :
    (V m c main_v17 : S1x128.Idx → EReal) (ix2 (0 : Fin 1) j) = (m ((c : Thread nD τ).loc main_arg5) : S128.Idx → EReal) (ix1 j) := by
  have e : (V m c main_v17 : S1x128.Idx → EReal) = shapeCast S1x128 (m ((c : Thread nD τ).loc main_arg5) : S128.Idx → EReal) shapeCasts_S128_S1x128 := by
    dsimp only [V, hostOps0]; after_results; rfl
  rw [e, row_entry]

theorem gamma_entry (c : Dev nD) (j : Fin 128) :
    (V m c main_v18 : S1x128.Idx → EReal) (ix2 (0 : Fin 1) j) = (m ((c : Thread nD τ).loc main_arg6) : S128.Idx → EReal) (ix1 j) := by
  have e : (V m c main_v18 : S1x128.Idx → EReal) = shapeCast S1x128 (m ((c : Thread nD τ).loc main_arg6) : S128.Idx → EReal) shapeCasts_S128_S1x128 := by
    dsimp only [V, hostOps0]; after_results; rfl
  rw [e, row_entry]

theorem beta_entry (c : Dev nD) (j : Fin 128) :
    (V m c main_v19 : S1x128.Idx → EReal) (ix2 (0 : Fin 1) j) = (m ((c : Thread nD τ).loc main_arg7) : S128.Idx → EReal) (ix1 j) := by
  have e : (V m c main_v19 : S1x128.Idx → EReal) = shapeCast S1x128 (m ((c : Thread nD τ).loc main_arg7) : S128.Idx → EReal) shapeCasts_S128_S1x128 := by
    dsimp only [V, hostOps0]; after_results; rfl
  rw [e, row_entry]

theorem bres_entry (c : Dev nD) (j : Fin 128) :
    (V m c main_v20 : S1x128.Idx → EReal) (ix2 (0 : Fin 1) j) = (m ((c : Thread nD τ).loc main_arg9) : S128.Idx → EReal) (ix1 j) := by
  have e : (V m c main_v20 : S1x128.Idx → EReal) = shapeCast S1x128 (m ((c : Thread nD τ).loc main_arg9) : S128.Idx → EReal) shapeCasts_S128_S1x128 := by
    dsimp only [V, hostOps0]; after_results; rfl
  rw [e, row_entry]

end Cert.KernelIdeal.Entry

end
-- ==== Proof.Blocks.lean ====
/-
  From the blocks to the array.

  The grid has 25 points; point `t` reads rows `4000·t … 4000·t + 3999` of the features and of the aggregate, the three
  weight matrices and the five [1, 128] rows whole, and writes back rows `4000·t … 4000·t + 3999` of the result. Entry
  `(p, j)` of what point `t` writes back is the row map of row `p` of its two row blocks, and that row is row
  `4000·t + p` of the arrays: the write-back is block `t` of ONE function of the argument arrays, the function the
  reference's last stage is. The 25 blocks cover the 100000 rows (row `r` lies in block `r / 4000`), so after the run the
  result array is that function.
-/
import proofs.«130822_j6476810682403_2_alg».proof.Proof.Gen.KernelIdeal.Value
import proofs.«130822_j6476810682403_2_alg».proof.Proof.KernelRow
import proofs.«130822_j6476810682403_2_alg».proof.Proof.RefRow
import proofs.«130822_j6476810682403_2_alg».proof.Proof.HostPrefix
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 25 points: the two row windows and the result window sit at block row `t`, every
    other window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_10.index t (0 : Fin 2) = t.val ∧ win0_10.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- The row of the arrays that row `p` of point `t`'s blocks is. -/
def rowOf (t : Fin cfg0.N) (p : Fin 4000) : Fin 100000 :=
  ⟨t.val * 4000 + p.val, by have hN : cfg0.N = 25 := N_0; have := t.isLt; have := p.isLt; omega⟩

/-- THE RESULT ARRAY as one function of the argument arrays as launched. -/
abbrev result (c : Dev nD) : S100000x128.Idx → EReal :=
  Cert.ReferenceIdeal.Row.whole (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-! ## Each input block, read where the result block's rectangle says -/

section Reads

variable (c : Dev nD) (t : Fin cfg0.N)

/-- Row `p` of the features' block at point `t` is row `4000·t + p` of the features. -/
theorem x_blk (p : Fin 4000) (k : Fin 128) :
    (iblk m c 0 t : S4000x128.Idx → EReal) (ix2 p k) = ((m ((c : Thread nD τ).loc main_arg0)) : S100000x128.Idx → EReal) (ix2 (rowOf t p) k) := by
  obtain ⟨⟨h0, h1⟩, -⟩ := idx_facts t
  show V m c main_arg0 (((cfg0.win 0).blk t).view.emb (ix2 p k)) = _
  rw [V_main_arg0]
  refine congrArg ((m ((c : Thread nD τ).loc main_arg0)) : S100000x128.Idx → EReal) (funext fun a => Fin.ext ?_)
  match a with
  | ⟨0, _⟩ => show win0_0.index t (0 : Fin 2) * 4000 + 1 * p.val = t.val * 4000 + p.val; rw [h0]; omega
  | ⟨1, _⟩ => show win0_0.index t (1 : Fin 2) * 128 + 1 * k.val = k.val; rw [h1]; omega

/-- Reading ANY [100000, 128] array through the aggregate window's block at point `t`: entry `(p, k)` is the array's
    entry `(4000·t + p, k)`. -/
theorem rows_read (A : S100000x128.Idx → EReal) (p : Fin 4000) (k : Fin 128) :
    ((cfg0.win 1).blk t).view.read (Elt Ideal) A (ix2 p k) = A (ix2 (rowOf t p) k) := by
  obtain ⟨-, ⟨h0, h1⟩, -⟩ := idx_facts t
  show A (((cfg0.win 1).blk t).view.emb (ix2 p k)) = A (ix2 (rowOf t p) k)
  refine congrArg A (funext fun a => Fin.ext ?_)
  match a with
  | ⟨0, _⟩ => show win0_1.index t (0 : Fin 2) * 4000 + 1 * p.val = t.val * 4000 + p.val; rw [h0]; omega
  | ⟨1, _⟩ => show win0_1.index t (1 : Fin 2) * 128 + 1 * k.val = k.val; rw [h1]; omega

/-- Row `p` of the aggregate's block at point `t` is row `4000·t + p` of the scatter-add of the gathered rows. The array
    enters only as the argument of the lemma above: the scatter-add is never opened. -/
theorem agg_blk (p : Fin 4000) (k : Fin 128) :
    (iblk m c 1 t : S4000x128.Idx → EReal) (ix2 p k)
      = Cert.ReferenceIdeal.Read.val_main_v13 (F := Ideal) (m ((c : Thread nD τ).loc main_arg0)) (m ((c : Thread nD τ).loc main_arg1)) (ix2 (rowOf t p) k) := by
  have hA : (V m c (Pipeline.arrRef spec0 1) : S100000x128.Idx → EReal)
      = Cert.ReferenceIdeal.Read.val_main_v13 (F := Ideal) (m ((c : Thread nD τ).loc main_arg0)) (m ((c : Thread nD τ).loc main_arg1)) := Entry.agg_entry m c
  unfold iblk
  rw [hA]
  exact rows_read t (Cert.ReferenceIdeal.Read.val_main_v13 (F := Ideal) (m ((c : Thread nD τ).loc main_arg0)) (m ((c : Thread nD τ).loc main_arg1)) : S100000x128.Idx → EReal) p k

/-- The weight windows hold their matrices whole at every point. -/
theorem w1_blk (k j : Fin 128) :
    (iblk m c 2 t : S128x128.Idx → EReal) (ix2 k j) = ((m ((c : Thread nD τ).loc main_arg2)) : S128x128.Idx → EReal) (ix2 k j) := by
  obtain ⟨-, -, -, ⟨h0, h1⟩, -⟩ := idx_facts t
  show V m c main_arg2 (((cfg0.win 2).blk t).view.emb (ix2 k j)) = _
  rw [V_main_arg2]
  refine congrArg ((m ((c : Thread nD τ).loc main_arg2)) : S128x128.Idx → EReal) (funext fun a => Fin.ext ?_)
  match a with
  | ⟨0, _⟩ => show win0_2.index t (0 : Fin 2) * 128 + 1 * k.val = k.val; rw [h0]; omega
  | ⟨1, _⟩ => show win0_2.index t (1 : Fin 2) * 128 + 1 * j.val = j.val; rw [h1]; omega

theorem w2_blk (k j : Fin 128) :
    (iblk m c 4 t : S128x128.Idx → EReal) (ix2 k j) = ((m ((c : Thread nD τ).loc main_arg4)) : S128x128.Idx → EReal) (ix2 k j) := by
  obtain ⟨-, -, -, -, -, ⟨h0, h1⟩, -⟩ := idx_facts t
  show V m c main_arg4 (((cfg0.win 4).blk t).view.emb (ix2 k j)) = _
  rw [V_main_arg4]
  refine congrArg ((m ((c : Thread nD τ).loc main_arg4)) : S128x128.Idx → EReal) (funext fun a => Fin.ext ?_)
  match a with
  | ⟨0, _⟩ => show win0_4.index t (0 : Fin 2) * 128 + 1 * k.val = k.val; rw [h0]; omega
  | ⟨1, _⟩ => show win0_4.index t (1 : Fin 2) * 128 + 1 * j.val = j.val; rw [h1]; omega

theorem wres_blk (k j : Fin 128) :
    (iblk m c 8 t : S128x128.Idx → EReal) (ix2 k j) = ((m ((c : Thread nD τ).loc main_arg8)) : S128x128.Idx → EReal) (ix2 k j) := by
  obtain ⟨-, -, -, -, -, -, -, -, -, ⟨h0, h1⟩, -⟩ := idx_facts t
  show V m c main_arg8 (((cfg0.win 8).blk t).view.emb (ix2 k j)) = _
  rw [V_main_arg8]
  refine congrArg ((m ((c : Thread nD τ).loc main_arg8)) : S128x128.Idx → EReal) (funext fun a => Fin.ext ?_)
  match a with
  | ⟨0, _⟩ => show win0_8.index t (0 : Fin 2) * 128 + 1 * k.val = k.val; rw [h0]; omega
  | ⟨1, _⟩ => show win0_8.index t (1 : Fin 2) * 128 + 1 * j.val = j.val; rw [h1]; omega

/-- The [1, 128] windows hold their rows whole at every point; entry `(0, j)` is entry `j` of the argument vector. -/
theorem b1_blk (j : Fin 128) :
    (iblk m c 3 t : S1x128.Idx → EReal) (ix2 (0 : Fin 1) j) = ((m ((c : Thread nD τ).loc main_arg3)) : S128.Idx → EReal) (ix1 j) := by
  obtain ⟨-, -, -, -, ⟨h0, h1⟩, -⟩ := idx_facts t
  have e : ((cfg0.win 3).blk t).view.emb (ix2 (0 : Fin 1) j) = ix2 (0 : Fin 1) j := funext fun a => Fin.ext (by
    match a with
    | ⟨0, _⟩ => show win0_3.index t (0 : Fin 2) * 1 + 1 * 0 = 0; rw [h0]
    | ⟨1, _⟩ => show win0_3.index t (1 : Fin 2) * 128 + 1 * j.val = j.val; rw [h1]; omega)
  show V m c main_v16 (((cfg0.win 3).blk t).view.emb (ix2 (0 : Fin 1) j)) = _
  rw [e]
  exact Entry.b1_entry m c j

theorem b2_blk (j : Fin 128) :
    (iblk m c 5 t : S1x128.Idx → EReal) (ix2 (0 : Fin 1) j) = ((m ((c : Thread nD τ).loc main_arg5)) : S128.Idx → EReal) (ix1 j) := by
  obtain ⟨-, -, -, -, -, -, ⟨h0, h1⟩, -⟩ := idx_facts t
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; rw [h0]
    | ⟨1, _⟩ => show win0_5.index t (1 : Fin 2) * 128 + 1 * j.val = j.val; rw [h1]; omega)
  show V m c main_v17 (((cfg0.win 5).blk t).view.emb (ix2 (0 : Fin 1) j)) = _
  rw [e]
  exact Entry.b2_entry m c j

theorem gamma_blk (j : Fin 128) :
    (iblk m c 6 t : S1x128.Idx → EReal) (ix2 (0 : Fin 1) j) = ((m ((c : Thread nD τ).loc main_arg6)) : S128.Idx → EReal) (ix1 j) := by
  obtain ⟨-, -, -, -, -, -, -, ⟨h0, h1⟩, -⟩ := idx_facts t
  have e : ((cfg0.win 6).blk t).view.emb (ix2 (0 : Fin 1) j) = ix2 (0 : Fin 1) j := funext fun a => Fin.ext (by
    match a with
    | ⟨0, _⟩ => show win0_6.index t (0 : Fin 2) * 1 + 1 * 0 = 0; rw [h0]
    | ⟨1, _⟩ => show win0_6.index t (1 : Fin 2) * 128 + 1 * j.val = j.val; rw [h1]; omega)
  show V m c main_v18 (((cfg0.win 6).blk t).view.emb (ix2 (0 : Fin 1) j)) = _
  rw [e]
  exact Entry.gamma_entry m c j

theorem beta_blk (j : Fin 128) :
    (iblk m c 7 t : S1x128.Idx → EReal) (ix2 (0 : Fin 1) j) = ((m ((c : Thread nD τ).loc main_arg7)) : S128.Idx → EReal) (ix1 j) := by
  obtain ⟨-, -, -, -, -, -, -, -, ⟨h0, h1⟩, -⟩ := idx_facts t
  have e : ((cfg0.win 7).blk t).view.emb (ix2 (0 : Fin 1) j) = ix2 (0 : Fin 1) j := funext fun a => Fin.ext (by
    match a with
    | ⟨0, _⟩ => show win0_7.index t (0 : Fin 2) * 1 + 1 * 0 = 0; rw [h0]
    | ⟨1, _⟩ => show win0_7.index t (1 : Fin 2) * 128 + 1 * j.val = j.val; rw [h1]; omega)
  show V m c main_v19 (((cfg0.win 7).blk t).view.emb (ix2 (0 : Fin 1) j)) = _
  rw [e]
  exact Entry.beta_entry m c j

theorem bres_blk (j : Fin 128) :
    (iblk m c 9 t : S1x128.Idx → EReal) (ix2 (0 : Fin 1) j) = ((m ((c : Thread nD τ).loc main_arg9)) : S128.Idx → EReal) (ix1 j) := by
  obtain ⟨-, -, -, -, -, -, -, -, -, -, ⟨h0, h1⟩⟩ := idx_facts t
  have e : ((cfg0.win 9).blk t).view.emb (ix2 (0 : Fin 1) j) = ix2 (0 : Fin 1) j := funext fun a => Fin.ext (by
    match a with
    | ⟨0, _⟩ => show win0_9.index t (0 : Fin 2) * 1 + 1 * 0 = 0; rw [h0]
    | ⟨1, _⟩ => show win0_9.index t (1 : Fin 2) * 128 + 1 * j.val = j.val; rw [h1]; omega)
  show V m c main_v20 (((cfg0.win 9).blk t).view.emb (ix2 (0 : Fin 1) j)) = _
  rw [e]
  exact Entry.bres_entry m c j

/-- Entry `(p, q)` of the result window's block at point `t` sits at `(4000·t + p, q)` of the result array. -/
theorem out_emb (p : Fin 4000) (q : Fin 128) :
    ((cfg0.win 10).blk t).view.emb (ix2 p q) = (ix2 (rowOf t p) q : S100000x128.Idx) := by
  obtain ⟨-, -, ⟨h0, h1⟩, -⟩ := idx_facts t
  refine funext fun a => Fin.ext ?_
  match a with
  | ⟨0, _⟩ => show win0_10.index t (0 : Fin 2) * 4000 + 1 * p.val = t.val * 4000 + p.val; rw [h0]; omega
  | ⟨1, _⟩ => show win0_10.index t (1 : Fin 2) * 128 + 1 * q.val = q.val; rw [h1]; omega

end Reads

/-! ## What a point writes back, the cover, the array after the run -/

/-- THE BODY'S RESULT AT AN ENTRY, for any blocks: entry `(p, q)` of what the body leaves in the result window's buffer is
    the row map of row `p` of the two row blocks, at column `q`. -/
theorem out_at (x0 x1 : Vec Ideal S4000x128 .f32) (x2 : Vec Ideal S128x128 .f32) (x3 : Vec Ideal S1x128 .f32)
    (x4 : Vec Ideal S128x128 .f32) (x5 x6 x7 : Vec Ideal S1x128 .f32) (x8 : Vec Ideal S128x128 .f32) (x9 : Vec Ideal S1x128 .f32)
    (p : Fin 4000) (q : Fin 128) :
    out0_10 x0 x1 x2 x3 x4 x5 x6 x7 x8 x9 (ix2 p q)
      = Cert.GinRow.rowOut (fun k => x0 (ix2 p k)) (fun k => x1 (ix2 p k)) (fun k j => x2 (ix2 k j)) (fun j => x3 (ix2 (0 : Fin 1) j))
          (fun k j => x4 (ix2 k j)) (fun j => x5 (ix2 (0 : Fin 1) j)) (fun j => x6 (ix2 (0 : Fin 1) j)) (fun j => x7 (ix2 (0 : Fin 1) j))
          (fun k j => x8 (ix2 k j)) (fun j => x9 (ix2 (0 : Fin 1) j)) q := by
  unfold out0_10
  rw [View.canon_unit_zero hz]
  simp only [View.ld_unit_zero (S := S4000x128) hz, View.ld_unit_zero (S := S128x128) hz, View.ld_unit_zero (S := S1x128) hz]
  exact Row.stored_at x0 x1 x2 x3 x4 x5 x6 x7 x8 x9 p q

/-- What point `t` writes back is block `t` of ANY function `G` of the result array's index whose entry
    `(4000·t + p, q)` is the row map of row `p` of the point's blocks. The blocks and `G` are variables here. -/
theorem flushed_of (c : Dev nD) (t : Fin cfg0.N) (G : S100000x128.Idx → EReal)
    (hG : ∀ (p : Fin 4000) (q : Fin 128), G (ix2 (rowOf t p) q)
      = Cert.GinRow.rowOut (fun k => ((iblk m c 0 t) : S4000x128.Idx → EReal) (ix2 p k)) (fun k => ((iblk m c 1 t) : S4000x128.Idx → EReal) (ix2 p k))
          (fun k j => ((iblk m c 2 t) : S128x128.Idx → EReal) (ix2 k j)) (fun j => ((iblk m c 3 t) : S1x128.Idx → EReal) (ix2 (0 : Fin 1) j))
          (fun k j => ((iblk m c 4 t) : S128x128.Idx → EReal) (ix2 k j)) (fun j => ((iblk m c 5 t) : S1x128.Idx → EReal) (ix2 (0 : Fin 1) j))
          (fun j => ((iblk m c 6 t) : S1x128.Idx → EReal) (ix2 (0 : Fin 1) j)) (fun j => ((iblk m c 7 t) : S1x128.Idx → EReal) (ix2 (0 : Fin 1) j))
          (fun k j => ((iblk m c 8 t) : S128x128.Idx → EReal) (ix2 k j)) (fun j => ((iblk m c 9 t) : S1x128.Idx → EReal) (ix2 (0 : Fin 1) j)) q) :
    (dats m 0 c).flushed 10 t = ((cfg0.win 10).blk t).view.read (Elt Ideal) G := by
  rw [Value.flushed10]
  generalize (iblk m c 0 t) = B0 at hG ⊢
  generalize (iblk m c 1 t) = B1 at hG ⊢
  generalize (iblk m c 2 t) = B2 at hG ⊢
  generalize (iblk m c 3 t) = B3 at hG ⊢
  generalize (iblk m c 4 t) = B4 at hG ⊢
  generalize (iblk m c 5 t) = B5 at hG ⊢
  generalize (iblk m c 6 t) = B6 at hG ⊢
  generalize (iblk m c 7 t) = B7 at hG ⊢
  generalize (iblk m c 8 t) = B8 at hG ⊢
  generalize (iblk m c 9 t) = B9 at hG ⊢
  funext y
  obtain ⟨p, q, rfl⟩ : ∃ (p : Fin 4000) (q : Fin 128), y = ix2 p q := ⟨y 0, y 1, eq_ix2 y⟩
  show out0_10 B0 B1 B2 B3 B4 B5 B6 B7 B8 B9 (ix2 p q) = G (((cfg0.win 10).blk t).view.emb (ix2 p q))
  rw [out_emb t p q, hG p q]
  exact out_at B0 B1 B2 B3 B4 B5 B6 B7 B8 B9 p q

/-- WHAT POINT `t` WRITES BACK is block `t` of `result`: each block of the point is its array read at the matching rows. -/
theorem flushed_eq (c : Dev nD) (t : Fin cfg0.N) :
    (dats m 0 c).flushed 10 t = ((cfg0.win 10).blk t).view.read (Elt Ideal) (result m c) := by
  refine flushed_of m c t (result m c) fun p q => ?_
  unfold result
  rw [Cert.ReferenceIdeal.Row.whole_at]
  simp only [x_blk m c t, agg_blk m c t, w1_blk m c t, b1_blk m c t, w2_blk m c t, b2_blk m c t, gamma_blk m c t, beta_blk m c t,
    wres_blk m c t, bres_blk m c t]

/-- An index of the result array is in point `t`'s block iff each coordinate is in the block's range on its axis. -/
theorem mem_blk (t : Fin cfg0.N) (i : S100000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v21).slice (win0_10.rect t)).set ↔ _
  rw [View.set_slice_whole, Rect.mem_set_unit]
  exact Iff.rfl

/-- Every index of the result array lies in the block of the point its row number, divided by 4000, names. -/
theorem cover (i : S100000x128.Idx) : ∃ t : Fin cfg0.N, (cfg0.win 10).flush t = true ∧ i ∈ ((cfg0.win 10).blk t).view.set := by
  have hN : cfg0.N = 25 := N_0
  have hi0 : (i 0).val < 100000 := idx2_lt0 i
  have hi1 : (i 1).val < 128 := idx2_lt1 i
  obtain ⟨t, ht⟩ : ∃ t : Fin cfg0.N, t.val = (i 0).val / 4000 := ⟨⟨(i 0).val / 4000, by omega⟩, rfl⟩
  obtain ⟨-, -, ⟨e0, e1⟩, -⟩ := idx_facts t
  refine ⟨t, flush0_10 t, ?_⟩
  rw [mem_blk]
  intro a
  match a with
  | ⟨0, _⟩ => show win0_10.index t (0 : Fin 2) * 4000 ≤ (i 0).val ∧ (i 0).val < win0_10.index t (0 : Fin 2) * 4000 + 4000; rw [e0]; omega
  | ⟨1, _⟩ => show win0_10.index t (1 : Fin 2) * 128 ≤ (i 1).val ∧ (i 1).val < win0_10.index t (1 : Fin 2) * 128 + 128; rw [e1]; omega

/-- THE ARRAY after the run is `result`. -/
theorem final (c : Dev nD) : (dats m 0 c).arrAt 10 cfg0.N = result m c :=
  (dats m 0 c).arrAt_eq_of_cover 10 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Blocks

end
-- ==== Proof.lean ====
/-
  The graph block of the kernel against its plain reference, over the extended reals.

  Both programs first form the neighbour aggregate on the host: the rows of the features named by the edges' sources are
  gathered and scatter-added onto zeros at the edges' targets. The kernel's program does so after a round trip of the
  features through a narrower float format, which is the identity on the extended reals, so the two aggregates are one
  array of the same two arguments. Everything after the aggregate acts on each of the 100000 rows separately: mix the
  row with its aggregate, two affine maps with a rectifier between them, normalisation over the row's 128 entries,
  scale and shift, plus the residual affine image of the row. The reference applies these stages to whole arrays; the
  kernel applies them to 25 blocks of 4000 rows, the weights and the [1, 128] rows resident. Read at an entry, both are
  the same function of the same row (`Cert.GinRow.rowOut`): the kernel's products into a zero accumulator and the host's
  contractions are the same sums, the kernel's lane sums and the host's row sums differ by an added zero, and the
  kernel's `1 / 128` and reciprocal square root are the host's. No law of the extended reals beyond `0 + s = s` is used,
  so the finiteness of the inputs is never opened.

  The frames are the generated ones (the reference's is its generated run with the result dropped); the idealization
  rewrote nothing, so it is preserved trivially.
-/
import proofs.«130822_j6476810682403_2_alg».proof.Defs
import proofs.«130822_j6476810682403_2_alg».proof.Proof.Gen.Kernel
import proofs.«130822_j6476810682403_2_alg».proof.Proof.Gen.Kernel.Skeleton
import proofs.«130822_j6476810682403_2_alg».proof.Proof.Gen.Kernel.Launch
import proofs.«130822_j6476810682403_2_alg».proof.Proof.Gen.Kernel.Points
import proofs.«130822_j6476810682403_2_alg».proof.Proof.Gen.Kernel.Frame
import proofs.«130822_j6476810682403_2_alg».proof.Proof.Gen.KernelIdeal
import proofs.«130822_j6476810682403_2_alg».proof.Proof.Gen.KernelIdeal.Skeleton
import proofs.«130822_j6476810682403_2_alg».proof.Proof.Gen.KernelIdeal.Launch
import proofs.«130822_j6476810682403_2_alg».proof.Proof.Gen.KernelIdeal.Points
import proofs.«130822_j6476810682403_2_alg».proof.Proof.Gen.KernelIdeal.Frame
import proofs.«130822_j6476810682403_2_alg».proof.Proof.Gen.ReferenceIdeal
import proofs.«130822_j6476810682403_2_alg».proof.Proof.Gen.Pre_finite_inputs
import proofs.«130822_j6476810682403_2_alg».proof.Proof.Gen.KernelIdeal.Value
import proofs.«130822_j6476810682403_2_alg».proof.Proof.Gen.ReferenceIdeal.Run
import proofs.«130822_j6476810682403_2_alg».proof.Proof.Gen.ReferenceIdeal.Read
import proofs.«130822_j6476810682403_2_alg».proof.Proof.RefRow
import proofs.«130822_j6476810682403_2_alg».proof.Proof.Blocks
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the ten arguments, the kernel's result array (the 25 written-back blocks, which cover it)
    and the reference's last stage are the same function of the arguments, entry by entry. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.Row.result_eq]
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
